-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x128 : Shape := ⟨2, ![16384, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S4096x128 .f32) (main_arg1 : FVec F S16384x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S4096x128 : Shape := ⟨2, ![4096, 128]⟩
abbrev S16384x128 : Shape := ⟨2, ![16384, 128]⟩
abbrev S4096x1 : Shape := ⟨2, ![4096, 1]⟩
abbrev S1024x128 : Shape := ⟨2, ![1024, 128]⟩
abbrev S1024x1 : Shape := ⟨2, ![1024, 1]⟩
abbrev S1024 : Shape := ⟨1, ![1024]⟩
abbrev S16384x1 : Shape := ⟨2, ![16384, 1]⟩
abbrev S2048x128 : Shape := ⟨2, ![2048, 128]⟩
abbrev S2048x1 : Shape := ⟨2, ![2048, 1]⟩
abbrev S2048 : Shape := ⟨1, ![2048]⟩
abbrev S1x16384 : Shape := ⟨2, ![1, 16384]⟩
abbrev S4096x16384 : Shape := ⟨2, ![4096, 16384]⟩
abbrev S1x2048 : Shape := ⟨2, ![1, 2048]⟩
abbrev S1024x2048 : Shape := ⟨2, ![1024, 2048]⟩

abbrev nBuf : Space → Nat
  | .hbm => 6
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096x1, .f32⟩
  | .hbm, ⟨3, _⟩ => ⟨S16384x1, .f32⟩
  | .hbm, ⟨4, _⟩ => ⟨S1x16384, .f32⟩
  | .hbm, ⟨5, _⟩ => ⟨S4096x16384, .f32⟩
  | .local _ .vmem, ⟨0, _⟩ => ⟨S1024x128, .f32⟩
  | .local _ .vmem, ⟨1, _⟩ => ⟨S1024x128, .f32⟩
  | .local _ .vmem, ⟨2, _⟩ => ⟨S1024x1, .f32⟩
  | .local _ .vmem, ⟨3, _⟩ => ⟨S1024x1, .f32⟩
  | .local _ .vmem, ⟨4, _⟩ => ⟨S2048x128, .f32⟩
  | .local _ .vmem, ⟨5, _⟩ => ⟨S2048x128, .f32⟩
  | .local _ .vmem, ⟨6, _⟩ => ⟨S2048x1, .f32⟩
  | .local _ .vmem, ⟨7, _⟩ => ⟨S2048x1, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S2048x128, .f32⟩
  | .local _ .vmem, ⟨13, _⟩ => ⟨S2048x128, .f32⟩
  | .local _ .vmem, ⟨14, _⟩ => ⟨S1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  inb_S1024x1_S1024x1_0_0 : ∀ a, (![0, 0] : Fin 2 → Nat) a + S1024x1.size a ≤ S1024x1.size a
  h_S1024x1 : 0 < S1024x1.numel
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  inb_S2048x1_S2048x1_0_0 : ∀ a, (![0, 0] : Fin 2 → Nat) a + S2048x1.size a ≤ S2048x1.size a
  h_S2048x1 : 0 < S2048x1.numel
  shapeCasts_S16384x1_S1x16384 : S16384x1.ShapeCasts S1x16384
  bitsLt_bf16_f32 : FTy.bits .bf16 < FTy.bits .f32
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .f32 = 32 ∨ (Rect.block (s := S4096x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x16384.size a
  hwx2_3 : ∀ i : grid2.Coords, EltTy.bits .f32 = 32 ∨ (Rect.block (s := S1x16384) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S4096x16384.size a
  hwx2_4 : ∀ i : grid2.Coords, EltTy.bits .f32 = 32 ∨ (Rect.block (s := S4096x16384) S1024x2048.size (cc2_transform_4 i) (hinb2_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1024x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x128 : Shape := ⟨2, ![4096, 128]⟩
abbrev S16384x128 : Shape := ⟨2, ![16384, 128]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S4096x16384 : Shape := ⟨2, ![4096, 16384]⟩
abbrev S1x16384 : Shape := ⟨2, ![1, 16384]⟩

abbrev nBuf : Space → Nat
  | .hbm => 44
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x128, .f32⟩
  | .hbm, ⟨14, _⟩ => ⟨S4096x128, .f32⟩
  | .hbm, ⟨15, _⟩ => ⟨S16384x128, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x128, .f32⟩
  | .hbm, ⟨27, _⟩ => ⟨S16384x128, .f32⟩
  | .hbm, ⟨28, _⟩ => ⟨S4096x128, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S16384x128, .f32⟩
  | .hbm, ⟨33, _⟩ => ⟨S_, .f32⟩
  | .hbm, ⟨34, _⟩ => ⟨S16384, .f32⟩
  | .hbm, ⟨35, _⟩ => ⟨S4096x16384, .f32⟩
  | .hbm, ⟨36, _⟩ => ⟨S1x16384, .f32⟩
  | .hbm, ⟨37, _⟩ => ⟨S4096x16384, .f32⟩
  | .hbm, ⟨38, _⟩ => ⟨S4096x16384, .f32⟩
  | .hbm, ⟨39, _⟩ => ⟨S4096x16384, .f32⟩
  | .hbm, ⟨40, _⟩ => ⟨S_, .f32⟩
  | .hbm, ⟨41, _⟩ => ⟨S4096x16384, .f32⟩
  | .hbm, ⟨42, _⟩ => ⟨S4096x16384, .f32⟩
  | .hbm, ⟨43, _⟩ => ⟨S4096x16384, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x128 : S_.BroadcastsInDim S4096x128 (![] : Fin 0 → Fin S4096x128.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S16384x128_S16384_d1 : S16384x128.ReducesTo [1] S16384
  bcast_S16384_S16384x1_0 : S16384.BroadcastsInDim S16384x1 (![0] : Fin 1 → Fin S16384x1.rank)
  bcast_S_S16384x128 : S_.BroadcastsInDim S16384x128 (![] : Fin 0 → Fin S16384x128.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x128_S16384x128_S4096x16384_1_1_0_0_n_n_wf : DotDims.WF S4096x128 S16384x128 S4096x16384 [1] [1] [0] [0] [] []

variable [Facts₀]

def dot_S4096x128_S16384x128_S4096x16384_1_1_0_0_n_n : DotDims S4096x128 S16384x128 S4096x16384 where
  lhsContracting := [1]
  rhsContracting := [1]
  lhsNonContracting := [0]
  rhsNonContracting := [0]
  lhsBatch := []
  rhsBatch := []
  wf := dot_S4096x128_S16384x128_S4096x16384_1_1_0_0_n_n_wf

class Facts : Prop extends Facts₀ where

variable [Facts]
-- ==== Proof.KernelRun.lean ====
/-
  The kernel's run on exact values, with its result named.

  The program is three grid launches with one host reshape between the second and the third.  Run from any memory, every
  weakly fair execution ends, nothing faults, and the final memory holds, at every buffer that outlives the launches, the
  contents the last boundary of the program's segments names: in particular the result array holds what the third launch's
  write-backs leave, and the two argument arrays hold what they were launched with.
-/
import proofs.«170251_j75359496176232_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents of it and the
    argument arrays as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.KernelIdeal.Result

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.RowDist.lean ====
/-
  The squared distance between scaled unit rows, as a function of two matrices.

  For a matrix `v` of `a` rows and `b` columns, row `r` has the squared length `ssq v r = Σ_k v(r,k)²`; the row is scaled to
  `nrm v r k = 3 · v(r,k) · (max (ssq v r) ε)^(-1/2)`, a vector of length 3 unless the row is shorter than `√ε`; `sqn v r`
  is the squared length of the scaled row.  For two matrices `x` (`a` rows) and `p` (`c` rows) over the same `b` columns,
  `crs x p i j` is the inner product of scaled row `i` of `x` with scaled row `j` of `p`, and

      dist x p i j = (sqn x i + sqn p j) - 2 · crs x p i j

  is the squared distance between the two scaled rows, written by the polarisation identity.  `cdist` clamps it below at
  zero.  Every operation is the exact one on the extended reals, and the three numbers 3, 2 and ε are kept as the words that
  spell them, so that the same word read on two sides is the same number without being evaluated.
-/
import Idealize.ShloMosaic.Lib.ValueIdx
import Idealize.ShloMosaic.PureOps.Ideal

noncomputable section

namespace Cert.RowDist

open Idealize.ShloMosaic Idealize.ShloMosaic.ValueIdx

/-- The floor under a row's squared length: the single-precision word nearest `1e-12`. -/
abbrev eps : EReal := Ideal.ofBits .f32 0x2B8CBCCC#32
/-- The length every row is scaled to: the word of `3.0`. -/
abbrev three : EReal := Ideal.ofBits .f32 0x40400000#32
/-- The coefficient of the cross term: the word of `2.0`. -/
abbrev two : EReal := Ideal.ofBits .f32 0x40000000#32
/-- The clamp's floor: the word of `+0.0`. -/
abbrev zero : EReal := Ideal.ofBits .f32 0x00000000#32

variable {a b c : ℕ}

/-- Row `r`'s squared length. -/
def ssq (v : (⟨2, ![a, b]⟩ : Shape).Idx → EReal) (r : Fin a) : EReal :=
  ∑ k : Fin b, v (ix2 r k) * v (ix2 r k)

/-- The factor row `r` is scaled by, before the 3: the inverse square root of its squared length floored at `ε`. -/
def scl (v : (⟨2, ![a, b]⟩ : Shape).Idx → EReal) (r : Fin a) : EReal :=
  Ideal.rsqrt (max (ssq v r) eps)

/-- Entry `k` of row `r` scaled to length 3. -/
def nrm (v : (⟨2, ![a, b]⟩ : Shape).Idx → EReal) (r : Fin a) (k : Fin b) : EReal :=
  three * v (ix2 r k) * scl v r

/-- The scaled row's squared length. -/
def sqn (v : (⟨2, ![a, b]⟩ : Shape).Idx → EReal) (r : Fin a) : EReal :=
  ∑ k : Fin b, nrm v r k * nrm v r k

/-- The inner product of scaled row `i` of `x` and scaled row `j` of `p`. -/
def crs (x : (⟨2, ![a, b]⟩ : Shape).Idx → EReal) (p : (⟨2, ![c, b]⟩ : Shape).Idx → EReal) (i : Fin a) (j : Fin c) : EReal :=
  ∑ k : Fin b, nrm x i k * nrm p j k

/-- The squared distance between the two scaled rows, by polarisation. -/
def dist (x : (⟨2, ![a, b]⟩ : Shape).Idx → EReal) (p : (⟨2, ![c, b]⟩ : Shape).Idx → EReal) (i : Fin a) (j : Fin c) : EReal :=
  (sqn x i + sqn p j) - two * crs x p i j

/-- The same, clamped below at zero. -/
def cdist (x : (⟨2, ![a, b]⟩ : Shape).Idx → EReal) (p : (⟨2, ![c, b]⟩ : Shape).Idx → EReal) (i : Fin a) (j : Fin c) : EReal :=
  max (dist x p i j) zero

end Cert.RowDist

end
-- ==== Proof.RowForms.lean ====
/-
  The printed row operations read at an index.

  A kernel scales the rows of an `[a, b]` block `v` in five printed steps: the lane sum of `v · v` to `[a]`, its cast to the
  column `[a, 1]`, the maximum with the splat of `ε`, the inverse square root, and the column broadcast back to `[a, b]`
  times `3 · v`.  Read at `(r, k)` the result is `nrm v r k` of the specification, and the column of the lane sums of its
  squares, read at `(r, u)`, is `sqn v r`.  All at any extents.
-/
import proofs.«170251_j75359496176232_2_alg».proof.Proof.LibKeepdims
import proofs.«170251_j75359496176232_2_alg».proof.Proof.RowDist

noncomputable section

namespace Cert.RowDist

open Idealize.ShloMosaic Idealize.ShloMosaic.ValueIdx

variable {a b : ℕ}

/-- The column of the rows' sums of squares: at `(r, u)` the sum over row `r` of the squares of `w`. -/
theorem sumsq_col (w : FVec Ideal ⟨2, ![a, b]⟩ .f32) (acc : BitVec FTy.f32.bits)
    (h : (⟨2, ![a, b]⟩ : Shape).Reduces [(1 : Fin 2)] ⟨1, ![a]⟩) (hφ : FKind.Formats FTy.f32)
    (hacc : acc = FKind.add.neutral .f32 hφ) (hc : (⟨1, ![a]⟩ : Shape).ShapeCasts ⟨2, ![a, 1]⟩) (r : Fin a) (u : Fin 1) :
    shapeCast ⟨2, ![a, 1]⟩ (multiReduction .add [(1 : Fin 2)] ⟨1, ![a]⟩ (mulf w w) acc h hφ hacc) hc (ix2 r u)
      = ∑ k : Fin b, w (ix2 r k) * w (ix2 r k) :=
  (shapeCast_a_a1_apply _ hc r u).trans (multiReduction_add_row (mulf w w) acc h hφ hacc r)

/-- The scaled block: at `(r, k)` entry `k` of row `r` scaled to length 3. -/
theorem scaled_apply (v : FVec Ideal ⟨2, ![a, b]⟩ .f32) (acc : BitVec FTy.f32.bits)
    (h : (⟨2, ![a, b]⟩ : Shape).Reduces [(1 : Fin 2)] ⟨1, ![a]⟩) (hφ : FKind.Formats FTy.f32)
    (hacc : acc = FKind.add.neutral .f32 hφ) (hc : (⟨1, ![a]⟩ : Shape).ShapeCasts ⟨2, ![a, 1]⟩)
    (hb : (⟨2, ![a, 1]⟩ : Shape).Broadcasts ⟨2, ![a, b]⟩) (r : Fin a) (k : Fin b) :
    mulf (mulf (broadcast ⟨2, ![a, b]⟩ (Scalar.ofBits (F := Ideal) .f32 0x40400000#32)) v)
        (broadcastTo ⟨2, ![a, b]⟩
          (rsqrt (maximumf (shapeCast ⟨2, ![a, 1]⟩ (multiReduction .add [(1 : Fin 2)] ⟨1, ![a]⟩ (mulf v v) acc h hφ hacc) hc)
            (broadcast ⟨2, ![a, 1]⟩ (Scalar.ofBits (F := Ideal) .f32 0x2B8CBCCC#32)))) hb) (ix2 r k)
      = nrm v r k := by
  show (three * v (ix2 r k)) * _ = three * v (ix2 r k) * scl v r
  refine congrArg (three * v (ix2 r k) * ·) ?_
  refine (broadcastTo_a1_ab_apply _ hb r k).trans ?_
  show Ideal.rsqrt (max _ eps) = Ideal.rsqrt (max (ssq v r) eps)
  exact congrArg (fun z => Ideal.rsqrt (max z eps)) (sumsq_col v acc h hφ hacc hc r 0)

/-- The column of the scaled rows' squared lengths. -/
theorem sqn_col (v : FVec Ideal ⟨2, ![a, b]⟩ .f32) (acc acc' : BitVec FTy.f32.bits)
    (h : (⟨2, ![a, b]⟩ : Shape).Reduces [(1 : Fin 2)] ⟨1, ![a]⟩) (hφ : FKind.Formats FTy.f32)
    (hacc : acc = FKind.add.neutral .f32 hφ) (hacc' : acc' = FKind.add.neutral .f32 hφ)
    (hc : (⟨1, ![a]⟩ : Shape).ShapeCasts ⟨2, ![a, 1]⟩)
    (hb : (⟨2, ![a, 1]⟩ : Shape).Broadcasts ⟨2, ![a, b]⟩) (N : FVec Ideal ⟨2, ![a, b]⟩ .f32)
    (hN : N = mulf (mulf (broadcast ⟨2, ![a, b]⟩ (Scalar.ofBits (F := Ideal) .f32 0x40400000#32)) v)
        (broadcastTo ⟨2, ![a, b]⟩
          (rsqrt (maximumf (shapeCast ⟨2, ![a, 1]⟩ (multiReduction .add [(1 : Fin 2)] ⟨1, ![a]⟩ (mulf v v) acc h hφ hacc) hc)
            (broadcast ⟨2, ![a, 1]⟩ (Scalar.ofBits (F := Ideal) .f32 0x2B8CBCCC#32)))) hb))
    (r : Fin a) (u : Fin 1) :
    shapeCast ⟨2, ![a, 1]⟩ (multiReduction .add [(1 : Fin 2)] ⟨1, ![a]⟩ (mulf N N) acc' h hφ hacc') hc (ix2 r u) = sqn v r := by
  refine (sumsq_col N acc' h hφ hacc' hc r u).trans ?_
  subst hN
  exact Finset.sum_congr rfl fun k _ => by rw [scaled_apply v acc h hφ hacc hc hb r k]

/-! ## Rows with the same entries -/

variable {a' c c' : ℕ}

/-- Two rows with the same entries have the same squared length. -/
theorem ssq_congr (v : (⟨2, ![a, b]⟩ : Shape).Idx → EReal) (v' : (⟨2, ![a', b]⟩ : Shape).Idx → EReal) (r : Fin a) (r' : Fin a')
    (h : ∀ k, v (ix2 r k) = v' (ix2 r' k)) : ssq v r = ssq v' r' :=
  Finset.sum_congr rfl fun k _ => by rw [h k]

/-- … and the same scaled entries. -/
theorem nrm_congr (v : (⟨2, ![a, b]⟩ : Shape).Idx → EReal) (v' : (⟨2, ![a', b]⟩ : Shape).Idx → EReal) (r : Fin a) (r' : Fin a')
    (h : ∀ k, v (ix2 r k) = v' (ix2 r' k)) (k : Fin b) : nrm v r k = nrm v' r' k := by
  unfold nrm scl
  rw [h k, ssq_congr v v' r r' h]

/-- … and the same scaled squared length. -/
theorem sqn_congr (v : (⟨2, ![a, b]⟩ : Shape).Idx → EReal) (v' : (⟨2, ![a', b]⟩ : Shape).Idx → EReal) (r : Fin a) (r' : Fin a')
    (h : ∀ k, v (ix2 r k) = v' (ix2 r' k)) : sqn v r = sqn v' r' :=
  Finset.sum_congr rfl fun k _ => by rw [nrm_congr v v' r r' h k]

/-- The inner product of two scaled rows depends on the two rows' entries only. -/
theorem crs_congr (x : (⟨2, ![a, b]⟩ : Shape).Idx → EReal) (x' : (⟨2, ![a', b]⟩ : Shape).Idx → EReal)
    (p : (⟨2, ![c, b]⟩ : Shape).Idx → EReal) (p' : (⟨2, ![c', b]⟩ : Shape).Idx → EReal)
    (i : Fin a) (i' : Fin a') (j : Fin c) (j' : Fin c')
    (hx : ∀ k, x (ix2 i k) = x' (ix2 i' k)) (hp : ∀ k, p (ix2 j k) = p' (ix2 j' k)) : crs x p i j = crs x' p' i' j' :=
  Finset.sum_congr rfl fun k _ => by rw [nrm_congr x x' i i' hx k, nrm_congr p p' j j' hp k]

end Cert.RowDist

end
-- ==== Proof.Stats0.lean ====
/-
  What the first launch leaves in its output array.

  The launch walks four points; at point `t` it stages rows `1024 t … 1024 t + 1023` of the `[4096, 128]` operand, and
  writes back, as rows `1024 t …` of the `[4096, 1]` output, the column of the scaled rows' squared lengths.  The blocks
  tile the output, and each is the restriction of one function of the whole operand: row `r` of the output is `sqn` of
  row `r` of the operand.  Stated at any contents `V` the launch is entered from.
-/
import proofs.«170251_j75359496176232_2_alg».proof.Proof.Gen.KernelIdeal.Frame
import proofs.«170251_j75359496176232_2_alg».proof.Proof.RowForms
import Idealize.ShloMosaic.Lib.Pipeline.Value

set_option maxRecDepth 16384

noncomputable section

namespace Cert.KernelIdeal.Stats0

open Cert.KernelIdeal Cert.KernelIdeal.Gen Cert.RowDist
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output column as a function of the whole operand: row `r` holds the scaled row's squared length. -/
def col (X : S4096x128.Idx → EReal) : S4096x1.Idx → EReal := fun j => sqn (a := 4096) (b := 128) X (j 0)

/-- The body's stored value at `(r, u)`: the squared length of the block's scaled row `r`. -/
theorem pay_apply (v0 : FVec Ideal S1024x128 .f32) (r : Fin 1024) (u : Fin 1) :
    k0_pay1 (F := Ideal) v0 (ix2 r u) = sqn (a := 1024) (b := 128) v0 r := by
  unfold k0_pay1
  exact sqn_col (a := 1024) (b := 128) v0 _ _ _ _ _ _ _ _ _ rfl r u

/-- Both windows' block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The operand's block at point `t`, at `y`, is the operand at row `1024 t + y₀`, column `y₁`. -/
theorem iblk_apply (c : Dev nD) (t : Fin cfg0.N) (y : S1024x128.Idx) (i : S4096x128.Idx)
    (h0 : (i 0).val = 1024 * t.val + (y 0).val) (h1 : (i 1).val = (y 1).val) :
    (iblk0 V c 0 t : S1024x128.Idx → EReal) y = (V c main_arg0 : S4096x128.Idx → EReal) i := by
  obtain ⟨e0, e1, -, -⟩ := idx_facts t
  unfold iblk0
  rw [View.read_apply]
  show (V c main_arg0 : S4096x128.Idx → EReal) _ = (V c main_arg0 : S4096x128.Idx → EReal) i
  refine congrArg (V c main_arg0 : S4096x128.Idx → EReal) ?_
  funext a
  apply Fin.ext
  match a with
  | ⟨0, _⟩ => show win0_0.index t (0 : Fin 2) * 1024 + 1 * (y 0).val = (i 0).val; rw [e0, h0]; omega
  | ⟨1, _⟩ => show win0_0.index t (1 : Fin 2) * 128 + 1 * (y 1).val = (i 1).val; rw [e1, h1]; omega

/-- What point `t` writes back is block `t` of the column of the whole operand. -/
theorem flushed_eq (c : Dev nD) (t : Fin cfg0.N) :
    (dat0 V c).flushed 1 t = ((cfg0.win 1).blk t).view.read (Elt Ideal) (col (V c main_arg0)) := by
  show (cfg0.win 1).cut (grid0.coords t) ((dat0 V c).after 1 t) = _
  rw [after0_1]
  unfold out0_1
  rw [View.canon_unit_zero hz]
  simp only [View.ld_unit_zero (S := S1024x128) hz]
  funext y
  obtain ⟨r, u, rfl⟩ : ∃ (r : Fin 1024) (u : Fin 1), y = ix2 r u := ⟨y 0, y 1, eq_ix2 y⟩
  rw [View.read_apply]
  refine (pay_apply (iblk0 V c 0 t) r u).trans ?_
  obtain ⟨-, -, e2, e3⟩ := idx_facts t
  refine sqn_congr (a := 1024) (a' := 4096) (b := 128) _ _ r _ fun k => ?_
  refine iblk_apply V c t (ix2 r k) _ ?_ ?_
  · show (win0_1.index t (0 : Fin 2) * 1024 + 1 * r.val) = 1024 * t.val + r.val
    rw [e2]; omega
  · rfl

/-- An index of the output is in point `t`'s block iff each coordinate is in the block's range on its axis. -/
theorem mem_blk (t : Fin cfg0.N) (i : S4096x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- Every row of the output is in the block of the point that owns its thousand-and-twenty-four rows. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  have hN : grid0.N = 4 := N_0
  let t : Fin cfg0.N := ⟨(i 0).val / 1024, by show (i 0).val / 1024 < grid0.N; rw [hN]; omega⟩
  refine ⟨t, flush0_1 t, ?_⟩
  obtain ⟨-, -, e2, e3⟩ := idx_facts t
  have ht : t.val = (i 0).val / 1024 := rfl
  rw [mem_blk]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 1 ≤ (i 1).val ∧ (i 1).val < win0_1.index t (1 : Fin 2) * 1 + 1; rw [e3]; omega

/-- The output array after the launch is the column of the whole operand as the launch found it. -/
theorem final (c : Dev nD) : (dat0 V c).arrAt 1 cfg0.N = col (V c main_arg0) :=
  (dat0 V c).arrAt_eq_of_cover 1 (col (V c main_arg0)) (fun t _ => flushed_eq V c t) cover

end Cert.KernelIdeal.Stats0

end
-- ==== Proof.Stats1.lean ====
/-
  What the second launch leaves in its output array.

  The launch walks eight points; at point `t` it stages rows `2048 t … 2048 t + 2047` of the `[16384, 128]` operand, and
  writes back, as rows `2048 t …` of the `[16384, 1]` output, the column of the scaled rows' squared lengths.  The blocks
  tile the output, and each is the restriction of one function of the whole operand: row `r` of the output is `sqn` of
  row `r` of the operand.  Stated at any contents `V` the launch is entered from.
-/
import proofs.«170251_j75359496176232_2_alg».proof.Proof.Gen.KernelIdeal.Frame
import proofs.«170251_j75359496176232_2_alg».proof.Proof.RowForms
import Idealize.ShloMosaic.Lib.Pipeline.Value

set_option maxRecDepth 16384

noncomputable section

namespace Cert.KernelIdeal.Stats1

open Cert.KernelIdeal Cert.KernelIdeal.Gen Cert.RowDist
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output column as a function of the whole operand: row `r` holds the scaled row's squared length. -/
def col (X : S16384x128.Idx → EReal) : S16384x1.Idx → EReal := fun j => sqn (a := 16384) (b := 128) X (j 0)

/-- The body's stored value at `(r, u)`: the squared length of the block's scaled row `r`. -/
theorem pay_apply (v0 : FVec Ideal S2048x128 .f32) (r : Fin 2048) (u : Fin 1) :
    k1_pay1 (F := Ideal) v0 (ix2 r u) = sqn (a := 2048) (b := 128) v0 r := by
  unfold k1_pay1
  exact sqn_col (a := 2048) (b := 128) v0 _ _ _ _ _ _ _ _ _ rfl r u

/-- Both windows' block index at point `t` is `(t, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The operand's block at point `t`, at `y`, is the operand at row `2048 t + y₀`, column `y₁`. -/
theorem iblk_apply (c : Dev nD) (t : Fin cfg1.N) (y : S2048x128.Idx) (i : S16384x128.Idx)
    (h0 : (i 0).val = 2048 * t.val + (y 0).val) (h1 : (i 1).val = (y 1).val) :
    (iblk1 V c 0 t : S2048x128.Idx → EReal) y = (V c main_arg1 : S16384x128.Idx → EReal) i := by
  obtain ⟨e0, e1, -, -⟩ := idx_facts t
  unfold iblk1
  rw [View.read_apply]
  show (V c main_arg1 : S16384x128.Idx → EReal) _ = (V c main_arg1 : S16384x128.Idx → EReal) i
  refine congrArg (V c main_arg1 : S16384x128.Idx → EReal) ?_
  funext a
  apply Fin.ext
  match a with
  | ⟨0, _⟩ => show win1_0.index t (0 : Fin 2) * 2048 + 1 * (y 0).val = (i 0).val; rw [e0, h0]; omega
  | ⟨1, _⟩ => show win1_0.index t (1 : Fin 2) * 128 + 1 * (y 1).val = (i 1).val; rw [e1, h1]; omega

/-- What point `t` writes back is block `t` of the column of the whole operand. -/
theorem flushed_eq (c : Dev nD) (t : Fin cfg1.N) :
    (dat1 V c).flushed 1 t = ((cfg1.win 1).blk t).view.read (Elt Ideal) (col (V c main_arg1)) := by
  show (cfg1.win 1).cut (grid1.coords t) ((dat1 V c).after 1 t) = _
  rw [after1_1]
  unfold out1_1
  rw [View.canon_unit_zero hz]
  simp only [View.ld_unit_zero (S := S2048x128) hz]
  funext y
  obtain ⟨r, u, rfl⟩ : ∃ (r : Fin 2048) (u : Fin 1), y = ix2 r u := ⟨y 0, y 1, eq_ix2 y⟩
  rw [View.read_apply]
  refine (pay_apply (iblk1 V c 0 t) r u).trans ?_
  obtain ⟨-, -, e2, e3⟩ := idx_facts t
  refine sqn_congr (a := 2048) (a' := 16384) (b := 128) _ _ r _ fun k => ?_
  refine iblk_apply V c t (ix2 r k) _ ?_ ?_
  · show (win1_1.index t (0 : Fin 2) * 2048 + 1 * r.val) = 2048 * t.val + r.val
    rw [e2]; omega
  · rfl

/-- An index of the output is in point `t`'s block iff each coordinate is in the block's range on its axis. -/
theorem mem_blk (t : Fin cfg1.N) (i : S16384x1.Idx) :
    i ∈ ((cfg1.win 1).blk t).view.set ↔ ∀ a : Fin 2, win1_1.index t a * S2048x1.size a ≤ (i a).val ∧ (i a).val < win1_1.index t a * S2048x1.size a + S2048x1.size a := by
  show i ∈ ((View.whole main_v1).slice (win1_1.rect t)).set ↔ _
  rw [View.set_slice_whole, Rect.mem_set_unit]
  exact Iff.rfl

/-- Every row of the output is in the block of the point that owns its two thousand and forty-eight rows. -/
theorem cover (i : S16384x1.Idx) : ∃ t : Fin cfg1.N, (cfg1.win 1).flush t = true ∧ i ∈ ((cfg1.win 1).blk t).view.set := by
  have hi0 : (i 0).val < 16384 := (i 0).isLt
  have hi1 : (i 1).val < 1 := (i 1).isLt
  have hN : grid1.N = 8 := N_1
  let t : Fin cfg1.N := ⟨(i 0).val / 2048, by show (i 0).val / 2048 < grid1.N; rw [hN]; omega⟩
  refine ⟨t, flush1_1 t, ?_⟩
  obtain ⟨-, -, e2, e3⟩ := idx_facts t
  have ht : t.val = (i 0).val / 2048 := rfl
  rw [mem_blk]
  intro a
  match a with
  | ⟨0, _⟩ => show win1_1.index t (0 : Fin 2) * 2048 ≤ (i 0).val ∧ (i 0).val < win1_1.index t (0 : Fin 2) * 2048 + 2048; rw [e2, ht]; omega
  | ⟨1, _⟩ => show win1_1.index t (1 : Fin 2) * 1 ≤ (i 1).val ∧ (i 1).val < win1_1.index t (1 : Fin 2) * 1 + 1; rw [e3]; omega

/-- The output array after the launch is the column of the whole operand as the launch found it. -/
theorem final (c : Dev nD) : (dat1 V c).arrAt 1 cfg1.N = col (V c main_arg1) :=
  (dat1 V c).arrAt_eq_of_cover 1 (col (V c main_arg1)) (fun t _ => flushed_eq V c t) cover

end Cert.KernelIdeal.Stats1

end
-- ==== Proof.CDistBody.lean ====
/-
  The third launch's stored value, read at an index.

  At a point the body holds a `[1024, 128]` block `x` of the first operand, a `[2048, 128]` block `p` of the second, the
  `[1024, 1]` column `xs` and the `[1, 2048]` row `ps` of the squared lengths.  It scales the rows of both blocks to length 3,
  multiplies the first by the transpose of the second (a contraction over the 128 columns into a zero accumulator), and
  stores `max (xs + ps − 2 · cross) 0`.  Read at `(p, q)`, the contraction is the inner product `crs x p` of scaled row `p`
  of the first block with scaled row `q` of the second, and the two broadcasts read the column at `(p, 0)` and the row at
  `(0, q)`.  The rounding of the scaled blocks on their way into the contraction is the identity on exact values.
-/
import proofs.«170251_j75359496176232_2_alg».proof.Proof.Gen.KernelIdeal.Skeleton
import proofs.«170251_j75359496176232_2_alg».proof.Proof.RowForms
import Idealize.ShloMosaic.Lib.Pipeline.Value
import Idealize.ShloMosaic.Lib.ValueLayout
import Idealize.ShloMosaic.PureOps.Ideal.Laws

noncomputable section

namespace Cert.KernelIdeal.CDistBody

open Cert.KernelIdeal Cert.KernelIdeal.Gen Cert.RowDist
open Idealize.ShloMosaic Idealize.ShloMosaic.ValueIdx

/-- The contraction's dimension record: both operands contract their second axis. -/
abbrev D := dot_S1024x128_S2048x128_S1024x2048_1_1_0_0_n_n

theorem lhs_0 (i : S1024x2048.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
theorem lhs_1 (i : S1024x2048.Idx) (q : D.contr.Idx) : (D.lhsIdx i q 1).val = (q ⟨0, by decide⟩).val :=
  D.lhsIdx_val_of_single rfl i q
theorem rhs_0 (i : S1024x2048.Idx) (q : D.contr.Idx) : (D.rhsIdx i q 0).val = (i 1).val := by
  unfold DotDims.rhsIdx
  rw [dif_neg (show ¬(0 : Fin S2048x128.rank) ∈ D.rhsBatch by decide), dif_pos (show (0 : Fin S2048x128.rank) ∈ D.rhsNonContracting by decide)]
  rfl
theorem rhs_1 (i : S1024x2048.Idx) (q : D.contr.Idx) : (D.rhsIdx i q 1).val = (q ⟨0, by decide⟩).val :=
  D.rhsIdx_val_of_single rfl i q

/-- The contraction into the zero accumulator at `(p, q)`: row `p` of the left operand against row `q` of the right. -/
theorem cross_apply {φ₁ φ₂ : FTy} (Lh : FVec Ideal S1024x128 φ₁) (Rh : FVec Ideal S2048x128 φ₂) (p : Fin 1024) (q : Fin 2048) :
    matmul D none Lh Rh (constant S1024x2048 .f32 0x00000000#32) (ix2 p q) = ∑ k : Fin 128, Lh (ix2 p k) * Rh (ix2 q k) := by
  show FloatOps.matmul D none Lh Rh (constant S1024x2048 .f32 0x00000000#32) (ix2 p q) = _
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 128 rfl rfl).symm k) = ix2 q k := funext fun a => Fin.ext (by
    match a with
    | ⟨0, _⟩ => exact rhs_0 _ _
    | ⟨1, _⟩ => exact (rhs_1 _ _).trans hk)
  rw [el, er]

/-- The stored value at `(p, q)`: the clamped sum of the column's entry of row `p`, the row's entry of column `q`, and minus
    twice the inner product of the two scaled rows. -/
theorem pay_apply (v0 : FVec Ideal S1024x128 .f32) (v12 : FVec Ideal S2048x128 .f32) (v25 : FVec Ideal S1024x1 .f32)
    (v27 : FVec Ideal S1x2048 .f32) (p : Fin 1024) (q : Fin 2048) :
    k2_pay1 (F := Ideal) v0 v12 v25 v27 (ix2 p q)
      = max ((v25 (ix2 p (0 : Fin 1)) + v27 (ix2 (0 : Fin 1) q)) - two * crs (a := 1024) (b := 128) (c := 2048) v0 v12 p q) zero := by
  unfold k2_pay1
  show max ((_ + _) - two * _) zero = _
  have e1 : ∀ (hc : S1024x1.ShapeCasts S1024x1) (hb : S1024x1.Broadcasts S1024x2048),
      broadcastTo S1024x2048 (shapeCast S1024x1 v25 hc) hb (ix2 p q) = v25 (ix2 p (0 : Fin 1)) := fun hc hb => by
    rw [shapeCast_self]; exact broadcastTo_a1_ab_apply (a := 1024) (b := 2048) v25 hb p q
  have e2 : ∀ (hc : S1x2048.ShapeCasts S1x2048) (hb : S1x2048.Broadcasts S1024x2048),
      broadcastTo S1024x2048 (shapeCast S1x2048 v27 hc) hb (ix2 p q) = v27 (ix2 (0 : Fin 1) q) := fun hc hb => by
    rw [shapeCast_self]; exact broadcastTo_1b_ab_apply (a := 1024) (b := 2048) v27 hb p q
  rw [e1, e2]
  refine congrArg (fun z => max ((v25 (ix2 p (0 : Fin 1)) + v27 (ix2 (0 : Fin 1) q)) - two * z) zero) ?_
  refine (cross_apply _ _ p q).trans ?_
  refine Finset.sum_congr rfl fun k _ => ?_
  show _ * _ = nrm v0 p k * nrm v12 q k
  rw [← scaled_apply (a := 1024) (b := 128) v0 0x00000000#32 reduces_S1024x128_S1024 (.inl rfl) rfl shapeCasts_S1024_S1024x1 broadcasts_S1024x1_S1024x128 p k,
    ← scaled_apply (a := 2048) (b := 128) v12 0x00000000#32 reduces_S2048x128_S2048 (.inl rfl) rfl shapeCasts_S2048_S2048x1 broadcasts_S2048x1_S2048x128 q k]
  rfl

end Cert.KernelIdeal.CDistBody

end
-- ==== Proof.CDistArray.lean ====
/-
  What the third launch leaves in its output array.

  The launch walks a grid of `8 × 4` points; the point with coordinates `(g, h)` stages rows `1024 h …` of the first operand
  and of the column of its rows' squared lengths, rows `2048 g …` of the second operand and columns `2048 g …` of the row
  of its rows' squared lengths, and writes back the `[1024, 2048]` block at block index `(h, g)` of the `[4096, 16384]` output.
  The thirty-two blocks tile the output, and each is the restriction of one function of the four arrays: the entry at
  `(i, j)` is the clamped sum of the column at row `i`, the row at column `j`, and minus twice the inner product of scaled row
  `i` of the first operand with scaled row `j` of the second.  Stated at any contents `V` the launch is entered from.
-/
import proofs.«170251_j75359496176232_2_alg».proof.Proof.Gen.KernelIdeal.Frame
import proofs.«170251_j75359496176232_2_alg».proof.Proof.CDistBody

set_option maxRecDepth 16384

noncomputable section

namespace Cert.KernelIdeal.CDistArray

open Cert.KernelIdeal Cert.KernelIdeal.Gen Cert.RowDist
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output as a function of the four arrays the launch reads. -/
def out (X0 : S4096x128.Idx → EReal) (XS : S4096x1.Idx → EReal) (X1 : S16384x128.Idx → EReal) (PS : S1x16384.Idx → EReal) :
    S4096x16384.Idx → EReal := fun j =>
  max ((XS (ix2 (j 0) (0 : Fin 1)) + PS (ix2 (0 : Fin 1) (j 1)))
    - two * crs (a := 4096) (b := 128) (c := 16384) X0 X1 (j 0) (j 1)) zero

/-- The printed index maps, decided over the grid: the row operands move with the output's first block coordinate,
    the column operands with its second, and the output's block coordinates stay in their ranges. -/
theorem idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (1 : Fin 2) ∧ win2_2.index t (1 : Fin 2) = 0
    ∧ win2_3.index t (0 : Fin 2) = 0 ∧ win2_3.index t (1 : Fin 2) = win2_4.index t (1 : Fin 2)
    ∧ win2_4.index t (0 : Fin 2) ≤ 3 ∧ win2_4.index t (1 : Fin 2) ≤ 7 :=
  (by decide +kernel : ∀ t : Fin grid2.N, _)

/-- Every block of the output is some point's. -/
theorem idx_onto : ∀ (q0 : Fin 4) (q1 : Fin 8), ∃ t : Fin cfg2.N, win2_4.index t = ![q0.val, q1.val] :=
  (by decide +kernel : ∀ (q0 : Fin 4) (q1 : Fin 8), ∃ t : Fin grid2.N, win2_4.index t = ![q0.val, q1.val])

/-- A staged block read at `y` is its array read at the block's offset plus `y`: the first operand, -/
theorem iblk_0 (c : Dev nD) (t : Fin cfg2.N) (y : S1024x128.Idx) (i : S4096x128.Idx)
    (h0 : (i 0).val = win2_0.index t (0 : Fin 2) * 1024 + (y 0).val) (h1 : (i 1).val = win2_0.index t (1 : Fin 2) * 128 + (y 1).val) :
    (iblk2 V c 0 t : S1024x128.Idx → EReal) y = (V c main_arg0 : S4096x128.Idx → EReal) i := by
  unfold iblk2
  rw [View.read_apply]
  refine congrArg (V c main_arg0 : S4096x128.Idx → EReal) ?_
  funext a
  apply Fin.ext
  match a with
  | ⟨0, _⟩ => show win2_0.index t (0 : Fin 2) * 1024 + 1 * (y 0).val = (i 0).val; omega
  | ⟨1, _⟩ => show win2_0.index t (1 : Fin 2) * 128 + 1 * (y 1).val = (i 1).val; omega

/-- the column of its rows' squared lengths, -/
theorem iblk_1 (c : Dev nD) (t : Fin cfg2.N) (y : S1024x1.Idx) (i : S4096x1.Idx)
    (h0 : (i 0).val = win2_1.index t (0 : Fin 2) * 1024 + (y 0).val) (h1 : (i 1).val = win2_1.index t (1 : Fin 2) * 1 + (y 1).val) :
    (iblk2 V c 1 t : S1024x1.Idx → EReal) y = (V c main_v0 : S4096x1.Idx → EReal) i := by
  unfold iblk2
  rw [View.read_apply]
  refine congrArg (V c main_v0 : S4096x1.Idx → EReal) ?_
  funext a
  apply Fin.ext
  match a with
  | ⟨0, _⟩ => show win2_1.index t (0 : Fin 2) * 1024 + 1 * (y 0).val = (i 0).val; omega
  | ⟨1, _⟩ => show win2_1.index t (1 : Fin 2) * 1 + 1 * (y 1).val = (i 1).val; omega

/-- the second operand, -/
theorem iblk_2 (c : Dev nD) (t : Fin cfg2.N) (y : S2048x128.Idx) (i : S16384x128.Idx)
    (h0 : (i 0).val = win2_2.index t (0 : Fin 2) * 2048 + (y 0).val) (h1 : (i 1).val = win2_2.index t (1 : Fin 2) * 128 + (y 1).val) :
    (iblk2 V c 2 t : S2048x128.Idx → EReal) y = (V c main_arg1 : S16384x128.Idx → EReal) i := by
  unfold iblk2
  rw [View.read_apply]
  refine congrArg (V c main_arg1 : S16384x128.Idx → EReal) ?_
  funext a
  apply Fin.ext
  match a with
  | ⟨0, _⟩ => show win2_2.index t (0 : Fin 2) * 2048 + 1 * (y 0).val = (i 0).val; omega
  | ⟨1, _⟩ => show win2_2.index t (1 : Fin 2) * 128 + 1 * (y 1).val = (i 1).val; omega

/-- and the row of its rows' squared lengths. -/
theorem iblk_3 (c : Dev nD) (t : Fin cfg2.N) (y : S1x2048.Idx) (i : S1x16384.Idx)
    (h0 : (i 0).val = win2_3.index t (0 : Fin 2) * 1 + (y 0).val) (h1 : (i 1).val = win2_3.index t (1 : Fin 2) * 2048 + (y 1).val) :
    (iblk2 V c 3 t : S1x2048.Idx → EReal) y = (V c main_v2 : S1x16384.Idx → EReal) i := by
  unfold iblk2
  rw [View.read_apply]
  refine congrArg (V c main_v2 : S1x16384.Idx → EReal) ?_
  funext a
  apply Fin.ext
  match a with
  | ⟨0, _⟩ => show win2_3.index t (0 : Fin 2) * 1 + 1 * (y 0).val = (i 0).val; omega
  | ⟨1, _⟩ => show win2_3.index t (1 : Fin 2) * 2048 + 1 * (y 1).val = (i 1).val; omega

/-- What point `t` writes back is block `t` of the one function of the four arrays as the launch found them. -/
theorem flushed_eq (c : Dev nD) (t : Fin cfg2.N) :
    (dat2 V c).flushed 4 t = ((cfg2.win 4).blk t).view.read (Elt Ideal)
      (out (V c main_arg0) (V c main_v0) (V c main_arg1) (V c main_v2)) := by
  show (cfg2.win 4).cut (grid2.coords t) ((dat2 V c).after 4 t) = _
  rw [after2_4]
  unfold out2_4
  rw [View.canon_unit_zero hz]
  simp only [View.ld_unit_zero (S := S1024x128) hz, View.ld_unit_zero (S := S2048x128) hz,
    View.ld_unit_zero (S := S1024x1) hz, View.ld_unit_zero (S := S1x2048) hz]
  funext y
  obtain ⟨p, q, rfl⟩ : ∃ (p : Fin 1024) (q : Fin 2048), y = ix2 p q := ⟨y 0, y 1, eq_ix2 y⟩
  rw [View.read_apply]
  refine (CDistBody.pay_apply (iblk2 V c 0 t) (iblk2 V c 2 t) (iblk2 V c 1 t) (iblk2 V c 3 t) p q).trans ?_
  obtain ⟨e00, e01, e10, e11, e20, e21, e30, e31, -, -⟩ := idx_facts t
  have hp := p.isLt
  have hq := q.isLt
  unfold out
  have hxs : (iblk2 V c 1 t : S1024x1.Idx → EReal) (ix2 p (0 : Fin 1))
      = (V c main_v0 : S4096x1.Idx → EReal) (ix2 ((((cfg2.win 4).blk t).view.emb (ix2 p q)) 0) (0 : Fin 1)) := by
    refine iblk_1 V c t (ix2 p (0 : Fin 1)) _ ?_ ?_
    · show win2_4.index t (0 : Fin 2) * 1024 + 1 * p.val = win2_1.index t (0 : Fin 2) * 1024 + p.val
      rw [e10]; omega
    · show (0 : ℕ) = win2_1.index t (1 : Fin 2) * 1 + 0
      rw [e11]
  have hps : (iblk2 V c 3 t : S1x2048.Idx → EReal) (ix2 (0 : Fin 1) q)
      = (V c main_v2 : S1x16384.Idx → EReal) (ix2 (0 : Fin 1) ((((cfg2.win 4).blk t).view.emb (ix2 p q)) 1)) := by
    refine iblk_3 V c t (ix2 (0 : Fin 1) q) _ ?_ ?_
    · show (0 : ℕ) = win2_3.index t (0 : Fin 2) * 1 + 0
      rw [e30]
    · show win2_4.index t (1 : Fin 2) * 2048 + 1 * q.val = win2_3.index t (1 : Fin 2) * 2048 + q.val
      rw [e31]; omega
  have hcr : crs (a := 1024) (b := 128) (c := 2048) (iblk2 V c 0 t) (iblk2 V c 2 t) p q
      = crs (a := 4096) (b := 128) (c := 16384) (V c main_arg0) (V c main_arg1)
          ((((cfg2.win 4).blk t).view.emb (ix2 p q)) 0) ((((cfg2.win 4).blk t).view.emb (ix2 p q)) 1) := by
    refine crs_congr (a := 1024) (a' := 4096) (b := 128) (c := 2048) (c' := 16384) _ _ _ _ p _ q _ (fun k => ?_) (fun k => ?_)
    · refine iblk_0 V c t (ix2 p k) _ ?_ ?_
      · show win2_4.index t (0 : Fin 2) * 1024 + 1 * p.val = win2_0.index t (0 : Fin 2) * 1024 + p.val
        rw [e00]; omega
      · show k.val = win2_0.index t (1 : Fin 2) * 128 + k.val
        rw [e01]; omega
    · refine iblk_2 V c t (ix2 q k) _ ?_ ?_
      · show win2_4.index t (1 : Fin 2) * 2048 + 1 * q.val = win2_2.index t (0 : Fin 2) * 2048 + q.val
        rw [e20]; omega
      · show k.val = win2_2.index t (1 : Fin 2) * 128 + k.val
        rw [e21]; omega
  rw [hxs, hps, hcr]
  rfl

/-- An index of the output is in point `t`'s block iff each coordinate is in the block's range on its axis. -/
theorem mem_blk (t : Fin cfg2.N) (i : S4096x16384.Idx) :
    i ∈ ((cfg2.win 4).blk t).view.set ↔ ∀ a : Fin 2, win2_4.index t a * S1024x2048.size a ≤ (i a).val ∧ (i a).val < win2_4.index t a * S1024x2048.size a + S1024x2048.size a := by
  show i ∈ ((View.whole main_v3).slice (win2_4.rect t)).set ↔ _
  rw [View.set_slice_whole, Rect.mem_set_unit]
  exact Iff.rfl

/-- Every entry of the output is in the block of the point whose block coordinates are the entry's quotients. -/
theorem cover (i : S4096x16384.Idx) : ∃ t : Fin cfg2.N, (cfg2.win 4).flush t = true ∧ i ∈ ((cfg2.win 4).blk t).view.set := by
  have hi0 : (i 0).val < 4096 := (i 0).isLt
  have hi1 : (i 1).val < 16384 := (i 1).isLt
  obtain ⟨t, ht⟩ := idx_onto ⟨(i 0).val / 1024, by omega⟩ ⟨(i 1).val / 2048, by omega⟩
  have q0 : win2_4.index t (0 : Fin 2) = (i 0).val / 1024 := congrFun ht 0
  have q1 : win2_4.index t (1 : Fin 2) = (i 1).val / 2048 := congrFun ht 1
  refine ⟨t, flush2_4 t, ?_⟩
  rw [mem_blk]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 2048 ≤ (i 1).val ∧ (i 1).val < win2_4.index t (1 : Fin 2) * 2048 + 2048; omega

/-- The output array after the launch is the one function of the four arrays as the launch found them. -/
theorem final (c : Dev nD) : (dat2 V c).arrAt 4 cfg2.N = out (V c main_arg0) (V c main_v0) (V c main_arg1) (V c main_v2) :=
  (dat2 V c).arrAt_eq_of_cover 4 _ (fun t _ => flushed_eq V c t) cover

end Cert.KernelIdeal.CDistArray

end
-- ==== Proof.LibColumnRow.lean ====
/-
  A column laid out as a row, read at an index.

  A `jnp.sum(…, keepdims=True)` column `[a, 1]` reshaped to the row `[1, a]` keeps its entries in row-major order: the row's
  entry at `(u, q)` is the column's entry of row `q`, whatever the two unit coordinates.  At any extent `a` and any element
  type; the indices are written by coordinates (`ix2`), so the lemma applies to a printed reshape by unification.
-/
import Idealize.ShloMosaic.Lib.Pipeline.Value
import Idealize.ShloMosaic.Lib.ValueIdx

namespace Idealize.ShloMosaic.ValueIdx

open Idealize.ShloMosaic

/-- A column `[a, 1]` re-laid as the row `[1, a]` reads, at `(u, q)`, the column's entry of row `q`. -/
theorem shapeCast_a1_1a_apply {α : Type} {a : ℕ} (x : (⟨2, ![a, 1]⟩ : Shape).Idx → α)
    (h : (⟨2, ![a, 1]⟩ : Shape).ShapeCasts ⟨2, ![1, a]⟩) (u u' : Fin 1) (q : Fin a) :
    shapeCast ⟨2, ![1, a]⟩ x h (ix2 u q) = x (ix2 q u') :=
  shapeCast_apply x h _ _ (by
    have hu : u.val = 0 := by omega
    have hu' : u'.val = 0 := by omega
    rw [Shape.rowMajor_val_two, Shape.rowMajor_val_two]
    show q.val * 1 + u'.val = u.val * a + q.val
    rw [hu, hu']; omega)

end Idealize.ShloMosaic.ValueIdx
-- ==== Proof.Through.lean ====
/-
  The kernel's result array on exact values, as a function of its two arguments.

  Through the program's segments: the first launch leaves the column of the first argument's scaled rows' squared lengths,
  the second the column of the second argument's; the host reshape lays the second column out as a row; the third launch,
  entered with the two arguments untouched, that column and that row, leaves at `(i, j)` the clamped sum of the column at
  `i`, the row at `j` and minus twice the inner product of the scaled rows — the specification's clamped squared distance of
  the two arguments as launched.
-/
import proofs.«170251_j75359496176232_2_alg».proof.Proof.Stats0
import proofs.«170251_j75359496176232_2_alg».proof.Proof.Stats1
import proofs.«170251_j75359496176232_2_alg».proof.Proof.CDistArray
import proofs.«170251_j75359496176232_2_alg».proof.Proof.LibColumnRow
import Idealize.ShloMosaic.Lib.StableHlo.Run

set_option maxRecDepth 16384

noncomputable section

namespace Cert.KernelIdeal.Through

open Cert.KernelIdeal Cert.KernelIdeal.Gen Cert.RowDist
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The third launch finds the first argument as launched, -/
theorem in_arg0 (c : Dev nD) : V3 m ρ c main_arg0 = m ((c : Thread nD τ).loc main_arg0) :=
  ((W4_arr m ρ c 0).trans (((dat2 (V3 m ρ) c).arrAt_in 0 rfl _).trans (A_eq2 (V3 m ρ) c 0))).symm.trans (W4_main_arg0 m ρ c)

/-- the second argument as launched, -/
theorem in_arg1 (c : Dev nD) : V3 m ρ c main_arg1 = m ((c : Thread nD τ).loc main_arg1) :=
  ((W4_arr m ρ c 2).trans (((dat2 (V3 m ρ) c).arrAt_in 2 rfl _).trans (A_eq2 (V3 m ρ) c 2))).symm.trans (W4_main_arg1 m ρ c)

/-- the column the first launch left: the reshape does not write it, the second launch does not touch it, -/
theorem in_xs (c : Dev nD) : V3 m ρ c main_v0 = Stats0.col (m ((c : Thread nD τ).loc main_arg0)) :=
  calc W3 m ρ c (Proc.devRef .tc main_v0)
    _ = W2 m ρ c (Proc.devRef .tc main_v0) := by
          show StableHlo.after hostOps2 (W2 m ρ c) (Proc.devRef .tc main_v0) = _
          after_results
    _ = W1 m ρ c (Proc.devRef .tc main_v0) := W2_of_ne m ρ c main_v0 (by decide)
    _ = (dat0 (V0 m ρ) c).arrAt 1 cfg0.N := W1_arr m ρ c 1
    _ = Stats0.col (V0 m ρ c main_arg0) := Stats0.final (V0 m ρ) c

/-- and, as a row, the column the second launch left. -/
theorem in_ps (c : Dev nD) : (V3 m ρ c main_v2 : S1x16384.Idx → EReal)
    = fun j => sqn (a := 16384) (b := 128) (m ((c : Thread nD τ).loc main_arg1)) (j 1) := by
  have h : W3 m ρ c (Proc.devRef .tc main_v2)
      = fun i => shapeCast S1x16384 (W2 m ρ c (Proc.devRef .tc main_v1) : S16384x1.Idx → EReal) shapeCasts_S16384x1_S1x16384 i := by
    show StableHlo.after hostOps2 (W2 m ρ c) (Proc.devRef .tc main_v2) = _
    after_results
    rfl
  have h1 : W2 m ρ c (Proc.devRef .tc main_v1) = Stats1.col (m ((c : Thread nD τ).loc main_arg1)) :=
    calc W2 m ρ c (Proc.devRef .tc main_v1)
      _ = (dat1 (V1 m ρ) c).arrAt 1 cfg1.N := W2_arr m ρ c 1
      _ = Stats1.col (V1 m ρ c main_arg1) := Stats1.final (V1 m ρ) c
      _ = Stats1.col (m ((c : Thread nD τ).loc main_arg1)) := congrArg Stats1.col (W1_of_ne m ρ c main_arg1 (by decide))
  funext j
  obtain ⟨u, q, rfl⟩ : ∃ (u : Fin 1) (q : Fin 16384), j = ix2 u q := ⟨j 0, j 1, eq_ix2 j⟩
  show W3 m ρ c (Proc.devRef .tc main_v2) (ix2 u q) = _
  rw [h, h1]
  exact shapeCast_a1_1a_apply (a := 16384) _ _ u 0 q

/-- The third launch's output depends on the four arrays it reads only. -/
theorem out_congr {A A' : S4096x128.Idx → EReal} {B B' : S4096x1.Idx → EReal} {C C' : S16384x128.Idx → EReal}
    {E E' : S1x16384.Idx → EReal} (hA : A = A') (hB : B = B') (hC : C = C') (hE : E = E') :
    CDistArray.out A B C E = CDistArray.out A' B' C' E' := by
  subst hA hB hC hE; rfl

/-- The result array after the program: the clamped squared distance of the two arguments as launched, index by index. -/
theorem result_eq (c : Dev nD) : (W4 m ρ c (Proc.devRef .tc main_v3) : S4096x16384.Idx → EReal)
    = fun j => cdist (a := 4096) (b := 128) (c := 16384) (m ((c : Thread nD τ).loc main_arg0)) (m ((c : Thread nD τ).loc main_arg1)) (j 0) (j 1) :=
  (W4_arr m ρ c 4).trans ((CDistArray.final (V3 m ρ) c).trans
    ((out_congr (in_arg0 m ρ c) (in_xs m ρ c) (in_arg1 m ρ c) (in_ps m ρ c)).trans rfl))

end Cert.KernelIdeal.Through

end
-- ==== Proof.RefIs.lean ====
/-
  The reference computes the squared distance of the specification.

  Stage by stage: the reference scales the rows of each matrix to length 3 (a host sum of squares along the rows, the floor
  at `ε`, the inverse square root, the column broadcast back over the row, times `3 · v`), sums the squares of the scaled rows,
  contracts the two scaled matrices over their columns, and returns `(xs + ps) − 2 · cross`.  Read at an index each stage is
  the specification's term: `nrm`, `sqn`, `crs`, and at `(i, j)` the result is `dist x p i j`.  A host sum starts from the
  word of zero, which adds nothing.
-/
import proofs.«170251_j75359496176232_2_alg».proof.Proof.Gen.ReferenceIdeal.Read
import proofs.«170251_j75359496176232_2_alg».proof.Proof.RowDist

noncomputable section

namespace Cert.ReferenceIdeal.RefIs

open Cert.ReferenceIdeal Cert.ReferenceIdeal.Read Cert.RowDist
open Idealize.ShloMosaic Idealize.ShloMosaic.ValueIdx

variable (x0 : S4096x128.Idx → EReal) (x1 : S16384x128.Idx → EReal)

/-- The first matrix's scaled entry. -/
theorem scaled0 (r : Fin 4096) (k : Fin 128) : val_main_v9 (F := Ideal) x0 (ix2 r k) = nrm (a := 4096) (b := 128) x0 r k := by
  rw [val_main_v9_apply, val_main_v4_apply, val_main_v3_apply, val_main_cst_0_apply, val_main_v8_apply, val_main_v7_apply,
    val_main_v6_apply, val_main_v2_apply, val_main_v1_apply, val_main_v5_apply, val_main_cst_1_apply, val_main_cst_apply]
  have e : ∀ k', idx_main_v1 (idx_main_v2 (idx_main_v8 (ix2 r k))) k' = ix2 r k' := fun k' =>
    funext fun a => Fin.ext (by match a with | ⟨0, _⟩ => rfl | ⟨1, _⟩ => rfl)
  simp only [e, val_main_v0_apply, Ideal.mulf_def, Ideal.maximumf_def, Ideal.hostUnary_rsqrt_def, Ideal.ofBits_def,
    Ideal.ofBits_zero_f32, zero_add]
  rfl

/-- The second matrix's scaled entry. -/
theorem scaled1 (r : Fin 16384) (k : Fin 128) : val_main_v19 (F := Ideal) x1 (ix2 r k) = nrm (a := 16384) (b := 128) x1 r k := by
  rw [val_main_v19_apply, val_main_v14_apply, val_main_v13_apply, val_main_cst_3_apply, val_main_v18_apply, val_main_v17_apply,
    val_main_v16_apply, val_main_v12_apply, val_main_v11_apply, val_main_v15_apply, val_main_cst_4_apply, val_main_cst_2_apply]
  have e : ∀ k', idx_main_v11 (idx_main_v12 (idx_main_v18 (ix2 r k))) k' = ix2 r k' := fun k' =>
    funext fun a => Fin.ext (by match a with | ⟨0, _⟩ => rfl | ⟨1, _⟩ => rfl)
  simp only [e, val_main_v10_apply, Ideal.mulf_def, Ideal.maximumf_def, Ideal.hostUnary_rsqrt_def, Ideal.ofBits_def,
    Ideal.ofBits_zero_f32, zero_add]
  rfl

/-- The first matrix's scaled rows' squared lengths, as the column the reference keeps. -/
theorem sqn0 (r : Fin 4096) (u : Fin 1) : val_main_v22 (F := Ideal) x0 (ix2 r u) = sqn (a := 4096) (b := 128) x0 r := by
  rw [val_main_v22_apply, val_main_v21_apply, val_main_cst_5_apply]
  have e : ∀ k', idx_main_v21 (idx_main_v22 (ix2 r u)) k' = ix2 r k' := fun k' =>
    funext fun a => Fin.ext (by match a with | ⟨0, _⟩ => rfl | ⟨1, _⟩ => rfl)
  simp only [e, val_main_v20_apply, Ideal.mulf_def, Ideal.ofBits_def, Ideal.ofBits_zero_f32, zero_add, scaled0]
  rfl

/-- The second matrix's scaled rows' squared lengths, as the vector the reference keeps. -/
theorem sqn1 (r : Fin 16384) : val_main_v24 (F := Ideal) x1 (ix1 r) = sqn (a := 16384) (b := 128) x1 r := by
  rw [val_main_v24_apply, val_main_cst_6_apply]
  have e : ∀ k', idx_main_v24 (ix1 r) k' = ix2 r k' := fun k' =>
    funext fun a => Fin.ext (by match a with | ⟨0, _⟩ => rfl | ⟨1, _⟩ => rfl)
  simp only [e, val_main_v23_apply, Ideal.mulf_def, Ideal.ofBits_def, Ideal.ofBits_zero_f32, zero_add, scaled1]
  rfl

/-- The contraction of the two scaled matrices over their columns. -/
theorem cross (p : Fin 4096) (q : Fin 16384) :
    val_main_v25 (F := Ideal) x0 x1 (ix2 p q) = crs (a := 4096) (b := 128) (c := 16384) x0 x1 p q := by
  rw [val_main_v25_apply]
  have el : ∀ k, lidx_main_v25 (ix2 p q) k = ix2 p k := fun k =>
    funext fun a => Fin.ext (by match a with | ⟨0, _⟩ => rfl | ⟨1, _⟩ => rfl)
  have er : ∀ k, ridx_main_v25 (ix2 p q) k = ix2 q k := fun k =>
    funext fun a => Fin.ext (by match a with | ⟨0, _⟩ => rfl | ⟨1, _⟩ => rfl)
  simp only [el, er, scaled0, scaled1]
  rfl

/-- The reference's result at `(p, q)`: the squared distance between scaled row `p` of the first matrix and scaled row `q`
    of the second. -/
theorem result_apply (p : Fin 4096) (q : Fin 16384) :
    val_main_v32 (F := Ideal) x0 x1 (ix2 p q) = dist (a := 4096) (b := 128) (c := 16384) x0 x1 p q := by
  rw [val_main_v32_apply, val_main_v29_apply, val_main_v27_apply, val_main_v28_apply, val_main_v26_apply, val_main_v31_apply,
    val_main_v30_apply, val_main_cst_7_apply]
  have e27 : idx_main_v27 (ix2 p q) = ix2 p (0 : Fin 1) :=
    funext fun a => Fin.ext (by match a with | ⟨0, _⟩ => rfl | ⟨1, _⟩ => rfl)
  have e26 : idx_main_v26 (idx_main_v28 (ix2 p q)) = ix1 q :=
    funext fun a => Fin.ext (by match a with | ⟨0, _⟩ => rfl)
  rw [e27, e26, sqn0, sqn1, cross]
  rfl

/-- The reference's result array is the specification's squared distance at every index. -/
theorem result_eq : (val_main_v32 (F := Ideal) x0 x1 : S4096x16384.Idx → EReal)
    = fun j => dist (a := 4096) (b := 128) (c := 16384) x0 x1 (j 0) (j 1) := by
  funext j
  obtain ⟨p, q, rfl⟩ : ∃ (p : Fin 4096) (q : Fin 16384), j = ix2 p q := ⟨j 0, j 1, eq_ix2 j⟩
  exact result_apply x0 x1 p q

end Cert.ReferenceIdeal.RefIs

end
-- ==== Proof.Clamp.lean ====
/-
  The clamp at zero does nothing when every entry is a real number.

  With real entries, a row's squared length is a nonnegative real, so its floor at the positive real `ε` is a real that is
  at least `ε > 0`; the inverse square root of a positive real is again a real, and `3` is a real, so every entry of a
  scaled row is a real number.  Writing `α` for scaled row `i` of `x` and `β` for scaled row `j` of `p`, the distance is
  the real number

      Σ α² + Σ β² - 2 · Σ α·β  =  Σ (α - β)²  ≥  0,

  and the larger of a nonnegative number and zero is that number.
-/
import proofs.«170251_j75359496176232_2_alg».proof.Proof.RowDist

noncomputable section

namespace Cert.RowDist

open Idealize.ShloMosaic Idealize.ShloMosaic.ValueIdx

/-- The word of `+0.0` denotes `0`. -/
theorem zero_eq : zero = 0 := by
  simp [zero, Ideal.ofBits, Ideal.ieee]

/-- The word of `2.0` denotes the real `2`. -/
theorem two_eq : two = ((2 : ℝ) : EReal) := by
  simp [two, Ideal.ofBits, Ideal.ieee, -EReal.coe_mul]; norm_num

/-- The word of `3.0` denotes a real number. -/
theorem three_real : ∃ t : ℝ, three = (t : EReal) := by
  refine ⟨3, ?_⟩
  simp [three, Ideal.ofBits, Ideal.ieee, -EReal.coe_mul]; norm_num

/-- The floor `ε` denotes a positive real number. -/
theorem eps_pos_real : ∃ e : ℝ, 0 < e ∧ eps = (e : EReal) := by
  simp [eps, Ideal.ofBits, Ideal.ieee, -EReal.coe_mul]

/-- A finite sum of real numbers, read in the extended reals, is the sum read there term by term. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

variable {a b c : ℕ}

/-- Every entry of a scaled row of a matrix of real numbers is a real number. -/
theorem nrm_real (v : (⟨2, ![a, b]⟩ : Shape).Idx → EReal) (hv : ∀ j, v j ≠ ⊤ ∧ v j ≠ ⊥) (r : Fin a) :
    ∃ α : Fin b → ℝ, ∀ k, nrm v r k = (α k : EReal) := by
  have hex : ∀ k : Fin b, ∃ w : ℝ, v (ix2 r k) = (w : EReal) := fun k =>
    ⟨(v (ix2 r k)).toReal, (EReal.coe_toReal (hv _).1 (hv _).2).symm⟩
  choose w hw using hex
  obtain ⟨e, he, hE⟩ := eps_pos_real
  obtain ⟨t, ht⟩ := three_real
  have hssq : ssq v r = ((∑ k, w k * w k : ℝ) : EReal) := by
    unfold ssq
    rw [← coe_sum]
    refine Finset.sum_congr rfl fun k _ => ?_
    rw [hw k, ← EReal.coe_mul]
  have hpos : 0 < max (∑ k, w k * w k) e := lt_max_of_lt_right he
  have hscl : scl v r = (((Real.sqrt (max (∑ k, w k * w k) e))⁻¹ : ℝ) : EReal) := by
    unfold scl
    rw [hssq, hE, ← EReal.coe_strictMono.monotone.map_max, Ideal.rsqrt_coe, if_neg (not_lt.2 hpos.le), if_neg hpos.ne']
  refine ⟨fun k => t * w k * (Real.sqrt (max (∑ k, w k * w k) e))⁻¹, fun k => ?_⟩
  unfold nrm
  rw [hscl, hw k, ht, ← EReal.coe_mul, ← EReal.coe_mul]

/-- The squared distance of two real vectors, written by polarisation, is not negative. -/
theorem polar_nonneg (α β : Fin b → ℝ) :
    0 ≤ (∑ k, α k * α k + ∑ k, β k * β k) - 2 * ∑ k, α k * β k := by
  have h : (∑ k, α k * α k + ∑ k, β k * β k) - 2 * ∑ k, α k * β k = ∑ k, (α k - β k) ^ 2 := by
    rw [Finset.mul_sum, ← Finset.sum_add_distrib, ← Finset.sum_sub_distrib]
    refine Finset.sum_congr rfl fun k _ => ?_
    ring
  rw [h]
  exact Finset.sum_nonneg fun k _ => sq_nonneg _

/-- On matrices of real numbers the clamped distance is the distance. -/
theorem cdist_eq_dist {a b c : ℕ} (x : (⟨2, ![a, b]⟩ : Shape).Idx → EReal) (p : (⟨2, ![c, b]⟩ : Shape).Idx → EReal)
    (hx : ∀ j, x j ≠ ⊤ ∧ x j ≠ ⊥) (hp : ∀ j, p j ≠ ⊤ ∧ p j ≠ ⊥) (i : Fin a) (j : Fin c) :
    cdist x p i j = dist x p i j := by
  obtain ⟨α, hα⟩ := nrm_real x hx i
  obtain ⟨β, hβ⟩ := nrm_real p hp j
  have hsx : sqn x i = ((∑ k, α k * α k : ℝ) : EReal) := by
    unfold sqn
    rw [← coe_sum]
    refine Finset.sum_congr rfl fun k _ => ?_
    rw [hα k, ← EReal.coe_mul]
  have hsp : sqn p j = ((∑ k, β k * β k : ℝ) : EReal) := by
    unfold sqn
    rw [← coe_sum]
    refine Finset.sum_congr rfl fun k _ => ?_
    rw [hβ k, ← EReal.coe_mul]
  have hcr : crs x p i j = ((∑ k, α k * β k : ℝ) : EReal) := by
    unfold crs
    rw [← coe_sum]
    refine Finset.sum_congr rfl fun k _ => ?_
    rw [hα k, hβ k, ← EReal.coe_mul]
  have hd : dist x p i j
      = (((∑ k, α k * α k + ∑ k, β k * β k) - 2 * ∑ k, α k * β k : ℝ) : EReal) := by
    unfold dist
    rw [hsx, hsp, hcr, two_eq, ← EReal.coe_add, ← EReal.coe_mul, ← EReal.coe_sub]
  unfold cdist
  rw [hd, zero_eq]
  exact max_eq_left (EReal.coe_nonneg.2 (polar_nonneg α β))

end Cert.RowDist

end
-- ==== Proof.FiniteRows.lean ====
/-
  The precondition says every entry of both matrices is a real number.

  The precondition is the conjunction of two statements of one form: every entry `v` of a matrix has `|v| < +∞`, where
  `|v|` is the larger of `v` and `-v` and `+∞` is spelt by the word whose exponent field is all ones and whose fraction is
  zero.  An extended real with `max v (-v) < ⊤` is neither `⊤` (then `max v (-v) = ⊤`) nor `⊥` (then `-v = ⊤`), so it is
  a real number.  A conjunction of bits is 1 only if both are, and a reduction by "and" over every entry is 1 only if
  every entry is 1, so the statement is read back entry by entry.
-/
import proofs.«170251_j75359496176232_2_alg».proof.Pre_finite_inputs
import Idealize.ShloMosaic.Lib.ReduceAll
import Idealize.ShloMosaic.Lib.ValueIdx
import Idealize.ShloMosaic.PureOps.Ideal

noncomputable section

namespace Cert.RowDist

open Idealize.ShloMosaic Idealize.ShloMosaic.ValueIdx

/-- The shape with no axes has one index. -/
instance : Subsingleton Cert.Pre_finite_inputs.S_.Idx := ⟨fun a b => funext fun d => d.elim0⟩

/-- An extended real whose absolute value is below the word of `+∞` is a real number. -/
theorem real_of_abs_lt (x : EReal) (h : Ideal.cmp .olt (max x (-x)) (Ideal.ofBits .f32 0x7F800000#32) = 1#1) :
    x ≠ ⊤ ∧ x ≠ ⊥ := by
  have htop : Ideal.ofBits .f32 0x7F800000#32 = ⊤ := by simp [Ideal.ofBits, Ideal.ieee]
  rw [htop] at h
  induction x using EReal.rec with
  | bot => simp [Ideal.cmp] at h
  | coe r => exact ⟨EReal.coe_ne_top r, EReal.coe_ne_bot r⟩
  | top => simp [Ideal.cmp] at h

/-- Under the precondition every entry of both matrices is a real number. -/
theorem finite_of_pre [Cert.Pre_finite_inputs.Facts]
    (x0 : FVec Ideal Cert.Pre_finite_inputs.S4096x128 .f32) (x1 : FVec Ideal Cert.Pre_finite_inputs.S16384x128 .f32)
    (h : Cert.Pre_finite_inputs.fn (F := Ideal) x0 x1 = fun _ => 1#1) :
    (∀ j, x0 j ≠ ⊤ ∧ x0 j ≠ ⊥) ∧ (∀ j, x1 j ≠ ⊤ ∧ x1 j ≠ ⊥) := by
  have h0 := congrFun h ValueIdx.ix0
  dsimp only [Cert.Pre_finite_inputs.fn] at h0
  obtain ⟨h1, h2⟩ := IntOp.andi_eq_one.1 h0
  exact ⟨fun j => real_of_abs_lt (x0 j) (Host.reduce_andi_all _ _ _ _ _ h1 j),
    fun j => real_of_abs_lt (x1 j) (Host.reduce_andi_all _ _ _ _ _ h2 j)⟩

end Cert.RowDist

end
-- ==== Proof.lean ====
/-
  A fused kernel for the squared distances between two sets of scaled rows, against its plain reference.

  Both programs take a `[4096, 128]` matrix `x` and a `[16384, 128]` matrix `p`, scale every row `v` to
  `3 · v · (max (Σ v²) ε)^(-1/2)`, and return, for every pair of rows, `‖x̂ᵢ‖² + ‖p̂ⱼ‖² − 2 · x̂ᵢ·p̂ⱼ`.  The kernel does it in three
  launches (the two columns of squared lengths, then the distances block by block, rescaling the rows of each block and
  rounding them on the way into the contraction) and clamps the result below at zero; the reference does it in one pass and
  does not clamp.  On exact values the rounding is the identity, a kernel's lane sums and contraction are the host's sums,
  and so the kernel's result is the reference's clamped at zero.  Under the precondition every entry is a real number;
  then every scaled entry is a real number, the expression is `Σ (x̂ᵢₖ − p̂ⱼₖ)² ≥ 0` by polarisation, and the clamp changes
  nothing: the two results are equal entry by entry.

  The frames are the programs' own runs with the results dropped; the kernel read on exact values is the printed kernel's
  own text, no operation rewritten, so there is nothing to preserve.
-/
import proofs.«170251_j75359496176232_2_alg».proof.Defs
import proofs.«170251_j75359496176232_2_alg».proof.Proof.Gen.Kernel
import proofs.«170251_j75359496176232_2_alg».proof.Proof.Gen.Kernel.Skeleton
import proofs.«170251_j75359496176232_2_alg».proof.Proof.Gen.Kernel.Launch
import proofs.«170251_j75359496176232_2_alg».proof.Proof.Gen.Kernel.Points
import proofs.«170251_j75359496176232_2_alg».proof.Proof.Gen.Kernel.Frame
import proofs.«170251_j75359496176232_2_alg».proof.Proof.Gen.KernelIdeal
import proofs.«170251_j75359496176232_2_alg».proof.Proof.Gen.KernelIdeal.Skeleton
import proofs.«170251_j75359496176232_2_alg».proof.Proof.Gen.KernelIdeal.Launch
import proofs.«170251_j75359496176232_2_alg».proof.Proof.Gen.KernelIdeal.Points
import proofs.«170251_j75359496176232_2_alg».proof.Proof.Gen.KernelIdeal.Frame
import proofs.«170251_j75359496176232_2_alg».proof.Proof.Gen.ReferenceIdeal
import proofs.«170251_j75359496176232_2_alg».proof.Proof.Gen.ReferenceIdeal.Run
import proofs.«170251_j75359496176232_2_alg».proof.Proof.Gen.ReferenceIdeal.Read
import proofs.«170251_j75359496176232_2_alg».proof.Proof.Gen.Pre_finite_inputs
import proofs.«170251_j75359496176232_2_alg».proof.Proof.KernelRun
import proofs.«170251_j75359496176232_2_alg».proof.Proof.Through
import proofs.«170251_j75359496176232_2_alg».proof.Proof.RefIs
import proofs.«170251_j75359496176232_2_alg».proof.Proof.Clamp
import proofs.«170251_j75359496176232_2_alg».proof.Proof.FiniteRows
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- On real entries the kernel's clamped squared distances are the reference's squared distances. -/
theorem algebraic : Cert.algebraic_KernelIdeal_ReferenceIdeal := by
  intro m ρ m' ρ' hpre hagree
  refine ⟨fun c => fun j => Cert.RowDist.dist (a := 4096) (b := 128) (c := 16384)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (j 0) (j 1), ?_, ?_⟩
  · refine (θ_run Cert.KernelIdeal.defs _ _).mono (fun r h c => ⟨(h c).1.trans ?_, (h c).2⟩)
      (Cert.KernelIdeal.Result.run (F := Ideal) m ρ)
    refine (Cert.KernelIdeal.Through.result_eq m ρ c).trans ?_
    obtain ⟨hx, hp⟩ := Cert.RowDist.finite_of_pre _ _ (hpre c)
    funext j
    exact Cert.RowDist.cdist_eq_dist _ _ hx hp (j 0) (j 1)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, (hagree c).1, (hagree c).2]
    exact Cert.ReferenceIdeal.RefIs.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
